-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4 : Shape := ⟨3, ![32, 512, 4]⟩
abbrev S32x2048x4 : Shape := ⟨3, ![32, 2048, 4]⟩
abbrev S32 : Shape := ⟨1, ![32]⟩
abbrev S_ : Shape := ⟨0, ![]⟩

class Facts : Prop where
  bcast_S_S32x512x4 : S_.BroadcastsInDim S32x512x4 (![] : Fin 0 → Fin S32x512x4.rank)
  reducesTo_S32x512x4_S_d0_1_2 : S32x512x4.ReducesTo [0, 1, 2] S_
  h_S_ : 0 < S_.numel
  bcast_S_S32x2048x4 : S_.BroadcastsInDim S32x2048x4 (![] : Fin 0 → Fin S32x2048x4.rank)
  reducesTo_S32x2048x4_S_d0_1_2 : S32x2048x4.ReducesTo [0, 1, 2] S_

variable [Facts]

def fn {F : FTy → Type} [FloatOps F] (main_arg0 : FVec F S32x512x4 .f32) (main_arg1 : FVec F S32x2048x4 .f32) (main_arg2 : IVec S32 32) : IVec S_ 1 :=
  let main_v0 : FVec F S32x512x4 .f32 := Host.absf main_arg0
  let main_cst : FVec F S_ .f32 := constant S_ .f32 0x7F800000#32
  let main_v1 : FVec F S32x512x4 .f32 := broadcastInDim S32x512x4 ![] bcast_S_S32x512x4 main_cst
  let main_v2 : IVec S32x512x4 1 := cmpf .olt main_v0 main_v1
  let main_c : IVec S_ 1 := constantI S_ 1 1#1
  let main_v3 : IVec S_ 1 := (fun x v => Host.reduce IntOp.andi x v reducesTo_S32x512x4_S_d0_1_2 h_S_) main_v2 main_c
  let main_v4 : FVec F S32x2048x4 .f32 := Host.absf main_arg1
  let main_cst_0 : FVec F S_ .f32 := constant S_ .f32 0x7F800000#32
  let main_v5 : FVec F S32x2048x4 .f32 := broadcastInDim S32x2048x4 ![] bcast_S_S32x2048x4 main_cst_0
  let main_v6 : IVec S32x2048x4 1 := cmpf .olt main_v4 main_v5
  let main_c_1 : IVec S_ 1 := constantI S_ 1 1#1
  let main_v7 : IVec S_ 1 := (fun x v => Host.reduce IntOp.andi x v reducesTo_S32x2048x4_S_d0_1_2 h_S_) main_v6 main_c_1
  let main_v8 : IVec S_ 1 := andi main_v3 main_v7
  main_v8
-- ==== Kernel.lean ====
abbrev S32x512x4 : Shape := ⟨3, ![32, 512, 4]⟩
abbrev S32x2048x4 : Shape := ⟨3, ![32, 2048, 4]⟩
abbrev S32 : Shape := ⟨1, ![32]⟩
abbrev S1x1 : Shape := ⟨2, ![1, 1]⟩
abbrev S1x512x4 : Shape := ⟨3, ![1, 512, 4]⟩
abbrev S1x4x512 : Shape := ⟨3, ![1, 4, 512]⟩
abbrev S1x512x1 : Shape := ⟨3, ![1, 512, 1]⟩
abbrev S1x1x512 : Shape := ⟨3, ![1, 1, 512]⟩
abbrev S1x512x512 : Shape := ⟨3, ![1, 512, 512]⟩
abbrev S1x512 : Shape := ⟨2, ![1, 512]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S32x512x4, .f32⟩
  | .hbm, ⟨1, _⟩ => ⟨S32x2048x4, .f32⟩
  | .hbm, ⟨2, _⟩ => ⟨S32, .i32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x512x4, .f32⟩
  | .local _ .vmem, ⟨1, _⟩ => ⟨S1x512x4, .f32⟩
  | .local _ .vmem, ⟨2, _⟩ => ⟨S1x512x4, .f32⟩
  | .local _ .vmem, ⟨3, _⟩ => ⟨S1x512x4, .f32⟩
  | .local _ .vmem, ⟨4, _⟩ => ⟨S1x1, .f32⟩
  | _, _ => ⟨S32x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1x512x4_S1x512x4_0_0_0 : ∀ a, (![0, 0, 0] : Fin 3 → Nat) a + S1x512x4.size a ≤ S1x512x4.size a
  h_S1x512x4 : 0 < S1x512x4.numel
  transposes_S1x512x4_p0_2_1_S1x4x512 : S1x512x4.Transposes [0, 2, 1] S1x4x512
  slices_S1x512x4_o0_0_0_S1x512x1 : S1x512x4.Slices ![0, 0, 0] S1x512x1
  slices_S1x512x4_o0_0_1_S1x512x1 : S1x512x4.Slices ![0, 0, 1] S1x512x1
  slices_S1x512x4_o0_0_2_S1x512x1 : S1x512x4.Slices ![0, 0, 2] S1x512x1
  slices_S1x512x4_o0_0_3_S1x512x1 : S1x512x4.Slices ![0, 0, 3] S1x512x1
  slices_S1x4x512_o0_0_0_S1x1x512 : S1x4x512.Slices ![0, 0, 0] S1x1x512
  slices_S1x4x512_o0_1_0_S1x1x512 : S1x4x512.Slices ![0, 1, 0] S1x1x512
  slices_S1x4x512_o0_2_0_S1x1x512 : S1x4x512.Slices ![0, 2, 0] S1x1x512
  slices_S1x4x512_o0_3_0_S1x1x512 : S1x4x512.Slices ![0, 3, 0] S1x1x512
  broadcasts_S1x512x1_S1x512x512 : S1x512x1.Broadcasts S1x512x512
  broadcasts_S1x1x512_S1x512x512 : S1x1x512.Broadcasts S1x512x512
  reduces_S1x512x512_S1x512 : S1x512x512.Reduces [2] S1x512
  shapeCasts_S1x512_S1x512x1 : S1x512.ShapeCasts S1x512x1
  reduces_S1x512x1_S1x1 : S1x512x1.Reduces [1] S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S32x2048x4.size a
  hwx0_0 : ∀ i : grid0.Coords, EltTy.bits .f32 = 32 ∨ (Rect.block (s := S32x2048x4) S1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4.size a ≤ S32x512x4.size a
  hwx0_1 : ∀ i : grid0.Coords, EltTy.bits .f32 = 32 ∨ (Rect.block (s := S32x512x4) S1x512x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg1) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x4 : Shape := ⟨3, ![32, 512, 4]⟩
abbrev S32x2048x4 : Shape := ⟨3, ![32, 2048, 4]⟩
abbrev S32 : Shape := ⟨1, ![32]⟩
abbrev S32x2048x1x4 : Shape := ⟨4, ![32, 2048, 1, 4]⟩
abbrev S32x1x512x4 : Shape := ⟨4, ![32, 1, 512, 4]⟩
abbrev S32x2048x1x1 : Shape := ⟨4, ![32, 2048, 1, 1]⟩
abbrev S32x2048x1 : Shape := ⟨3, ![32, 2048, 1]⟩
abbrev S_ : Shape := ⟨0, ![]⟩
abbrev S32x1x512x1 : Shape := ⟨4, ![32, 1, 512, 1]⟩
abbrev S32x1x512 : Shape := ⟨3, ![32, 1, 512]⟩
abbrev S32x2048x512 : Shape := ⟨3, ![32, 2048, 512]⟩
abbrev S32x2048 : Shape := ⟨2, ![32, 2048]⟩

abbrev nBuf : Space → Nat
  | .hbm => 173
  | .vmem => 0
  | .smem => 0
  | _ => 0

abbrev hbmTy0_0 (i : Nat) : BufTy := match i % 128 with
  | 0 => ⟨S32x512x4, .f32⟩
  | 1 => ⟨S32x2048x4, .f32⟩
  | 2 => ⟨S32, .i32⟩
  | 3 => ⟨S32x2048x1x4, .f32⟩
  | 4 => ⟨S32x1x512x4, .f32⟩
  | 5 => ⟨S32x2048x1x1, .f32⟩
  | 6 => ⟨S32x2048x1, .f32⟩
  | 7 => ⟨S32x2048x1x1, .f32⟩
  | 8 => ⟨S32x2048x1, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S_, .f32⟩
  | 15 => ⟨S32x2048x1, .f32⟩
  | 16 => ⟨S32x2048x1, .f32⟩
  | 17 => ⟨S32x2048x1x1, .f32⟩
  | 18 => ⟨S32x2048x1, .f32⟩
  | 19 => ⟨S32x2048x1x1, .f32⟩
  | 20 => ⟨S32x2048x1, .f32⟩
  | 21 => ⟨S32x2048x1, .f32⟩
  | 22 => ⟨S_, .f32⟩
  | 23 => ⟨S32x2048x1, .f32⟩
  | 24 => ⟨S32x2048x1, .f32⟩
  | 25 => ⟨S_, .f32⟩
  | 26 => ⟨S_, .f32⟩
  | 27 => ⟨S32x2048x1, .f32⟩
  | 28 => ⟨S32x2048x1, .f32⟩
  | 29 => ⟨S32x1x512x1, .f32⟩
  | 30 => ⟨S32x1x512, .f32⟩
  | 31 => ⟨S32x1x512x1, .f32⟩
  | 32 => ⟨S32x1x512, .f32⟩
  | 33 => ⟨S32x1x512, .f32⟩
  | 34 => ⟨S_, .f32⟩
  | 35 => ⟨S32x1x512, .f32⟩
  | 36 => ⟨S32x1x512, .f32⟩
  | 37 => ⟨S_, .f32⟩
  | 38 => ⟨S_, .f32⟩
  | 39 => ⟨S32x1x512, .f32⟩
  | 40 => ⟨S32x1x512, .f32⟩
  | 41 => ⟨S32x1x512x1, .f32⟩
  | 42 => ⟨S32x1x512, .f32⟩
  | 43 => ⟨S32x1x512x1, .f32⟩
  | 44 => ⟨S32x1x512, .f32⟩
  | 45 => ⟨S32x1x512, .f32⟩
  | 46 => ⟨S_, .f32⟩
  | 47 => ⟨S32x1x512, .f32⟩
  | 48 => ⟨S32x1x512, .f32⟩
  | 49 => ⟨S_, .f32⟩
  | 50 => ⟨S_, .f32⟩
  | 51 => ⟨S32x1x512, .f32⟩
  | 52 => ⟨S32x1x512, .f32⟩
  | 53 => ⟨S32x2048x1, .f32⟩
  | 54 => ⟨S32x1x512, .f32⟩
  | 55 => ⟨S32x2048x1x1, .f32⟩
  | 56 => ⟨S32x2048x1, .f32⟩
  | 57 => ⟨S32x1x512x1, .f32⟩
  | 58 => ⟨S32x1x512, .f32⟩
  | 59 => ⟨S32x2048x512, .f32⟩
  | 60 => ⟨S32x2048x512, .f32⟩
  | 61 => ⟨S32x2048x512, .f32⟩
  | 62 => ⟨S32x2048x1x1, .f32⟩
  | 63 => ⟨S32x2048x1, .f32⟩
  | 64 => ⟨S32x1x512x1, .f32⟩
  | 65 => ⟨S32x1x512, .f32⟩
  | 66 => ⟨S32x2048x512, .f32⟩
  | 67 => ⟨S32x2048x512, .f32⟩
  | 68 => ⟨S32x2048x512, .f32⟩
  | 69 => ⟨S32x2048x1x1, .f32⟩
  | 70 => ⟨S32x2048x1, .f32⟩
  | 71 => ⟨S32x1x512x1, .f32⟩
  | 72 => ⟨S32x1x512, .f32⟩
  | 73 => ⟨S32x2048x512, .f32⟩
  | 74 => ⟨S32x2048x512, .f32⟩
  | 75 => ⟨S32x2048x512, .f32⟩
  | 76 => ⟨S32x2048x1x1, .f32⟩
  | 77 => ⟨S32x2048x1, .f32⟩
  | 78 => ⟨S32x1x512x1, .f32⟩
  | 79 => ⟨S32x1x512, .f32⟩
  | 80 => ⟨S32x2048x512, .f32⟩
  | 81 => ⟨S32x2048x512, .f32⟩
  | 82 => ⟨S32x2048x512, .f32⟩
  | 83 => ⟨S32x2048x512, .f32⟩
  | 84 => ⟨S_, .f32⟩
  | 85 => ⟨S32x2048x512, .f32⟩
  | 86 => ⟨S32x2048x512, .f32⟩
  | 87 => ⟨S_, .f32⟩
  | 88 => ⟨S_, .f32⟩
  | 89 => ⟨S32x2048x512, .f32⟩
  | 90 => ⟨S32x2048x512, .f32⟩
  | 91 => ⟨S32x2048x512, .f32⟩
  | 92 => ⟨S_, .f32⟩
  | 93 => ⟨S32x2048x512, .f32⟩
  | 94 => ⟨S32x2048x512, .f32⟩
  | 95 => ⟨S_, .f32⟩
  | 96 => ⟨S_, .f32⟩
  | 97 => ⟨S32x2048x512, .f32⟩
  | 98 => ⟨S32x2048x512, .f32⟩
  | 99 => ⟨S32x2048x512, .f32⟩
  | 100 => ⟨S32x2048x512, .f32⟩
  | 101 => ⟨S32x2048x512, .f32⟩
  | 102 => ⟨S32x2048x512, .f32⟩
  | 103 => ⟨S32x2048x512, .f32⟩
  | 104 => ⟨S32x2048x512, .f32⟩
  | 105 => ⟨S_, .f32⟩
  | 106 => ⟨S32x2048x512, .f32⟩
  | 107 => ⟨S32x2048x512, .f32⟩
  | 108 => ⟨S32x2048x1x1, .f32⟩
  | 109 => ⟨S32x2048x1, .f32⟩
  | 110 => ⟨S32x1x512x1, .f32⟩
  | 111 => ⟨S32x1x512, .f32⟩
  | 112 => ⟨S32x2048x512, .f32⟩
  | 113 => ⟨S32x2048x512, .f32⟩
  | 114 => ⟨S32x2048x512, .f32⟩
  | 115 => ⟨S32x2048x1x1, .f32⟩
  | 116 => ⟨S32x2048x1, .f32⟩
  | 117 => ⟨S32x1x512x1, .f32⟩
  | 118 => ⟨S32x1x512, .f32⟩
  | 119 => ⟨S32x2048x512, .f32⟩
  | 120 => ⟨S32x2048x512, .f32⟩
  | 121 => ⟨S32x2048x512, .f32⟩
  | 122 => ⟨S32x2048x1x1, .f32⟩
  | 123 => ⟨S32x2048x1, .f32⟩
  | 124 => ⟨S32x1x512x1, .f32⟩
  | 125 => ⟨S32x1x512, .f32⟩
  | 126 => ⟨S32x2048x512, .f32⟩
  | 127 => ⟨S32x2048x512, .f32⟩
  | _ => ⟨S32x512x4, .f32⟩

abbrev hbmTy0_1 (i : Nat) : BufTy := match i % 128 with
  | 0 => ⟨S32x2048x512, .f32⟩
  | 1 => ⟨S32x2048x1x1, .f32⟩
  | 2 => ⟨S32x2048x1, .f32⟩
  | 3 => ⟨S32x1x512x1, .f32⟩
  | 4 => ⟨S32x1x512, .f32⟩
  | 5 => ⟨S32x2048x512, .f32⟩
  | 6 => ⟨S32x2048x512, .f32⟩
  | 7 => ⟨S32x2048x512, .f32⟩
  | 8 => ⟨S32x2048x512, .f32⟩
  | 9 => ⟨S_, .f32⟩
  | 10 => ⟨S32x2048x512, .f32⟩
  | 11 => ⟨S32x2048x512, .f32⟩
  | 12 => ⟨S_, .f32⟩
  | 13 => ⟨S_, .f32⟩
  | 14 => ⟨S32x2048x512, .f32⟩
  | 15 => ⟨S32x2048x512, .f32⟩
  | 16 => ⟨S32x2048x512, .f32⟩
  | 17 => ⟨S_, .f32⟩
  | 18 => ⟨S32x2048x512, .f32⟩
  | 19 => ⟨S32x2048x512, .f32⟩
  | 20 => ⟨S_, .f32⟩
  | 21 => ⟨S_, .f32⟩
  | 22 => ⟨S32x2048x512, .f32⟩
  | 23 => ⟨S32x2048x512, .f32⟩
  | 24 => ⟨S32x2048x512, .f32⟩
  | 25 => ⟨S32x2048x512, .f32⟩
  | 26 => ⟨S32x2048x512, .f32⟩
  | 27 => ⟨S32x2048x512, .f32⟩
  | 28 => ⟨S_, .f32⟩
  | 29 => ⟨S_, .f32⟩
  | 30 => ⟨S_, .f32⟩
  | 31 => ⟨S32x2048x512, .f32⟩
  | 32 => ⟨S32x2048x512, .f32⟩
  | 33 => ⟨S_, .f32⟩
  | 34 => ⟨S32x2048x512, .f32⟩
  | 35 => ⟨S32x2048x512, .f32⟩
  | 36 => ⟨S_, .f32⟩
  | 37 => ⟨S32x2048, .f32⟩
  | 38 => ⟨S_, .f32⟩
  | 39 => ⟨S32x2048, .f32⟩
  | 40 => ⟨S32x2048, .f32⟩
  | 41 => ⟨S_, .f32⟩
  | 42 => ⟨S_, .f32⟩
  | 43 => ⟨S_, .f32⟩
  | 44 => ⟨S_, .f32⟩
  | _ => ⟨S32x512x4, .f32⟩

abbrev hbmTy (i : Nat) : BufTy := match i / 128 with
  | 0 => hbmTy0_0 i
  | 1 => hbmTy0_1 i
  | _ => ⟨S32x512x4, .f32⟩

abbrev bufTy : (tb : Table) → Fin (tcTables nBuf tb) → BufTy
  | .hbm, ⟨i, _⟩ => hbmTy i
  | _, _ => ⟨S32x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_call3_v0 : Ref sig .tc := ⟨.hbm, 50, rfl⟩
abbrev main_call3_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_call4_v0 : Ref sig .tc := ⟨.hbm, 88, rfl⟩
abbrev main_call4_v1 : Ref sig .tc := ⟨.hbm, 89, rfl⟩
abbrev main_v67 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_call5_v0 : Ref sig .tc := ⟨.hbm, 96, rfl⟩
abbrev main_call5_v1 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_12 : Ref sig .tc := ⟨.hbm, 137, rfl⟩
abbrev main_v109 : Ref sig .tc := ⟨.hbm, 138, rfl⟩
abbrev main_v110 : Ref sig .tc := ⟨.hbm, 139, rfl⟩
abbrev main_cst_13 : Ref sig .tc := ⟨.hbm, 140, rfl⟩
abbrev main_call6_v0 : Ref sig .tc := ⟨.hbm, 141, rfl⟩
abbrev main_call6_v1 : Ref sig .tc := ⟨.hbm, 142, rfl⟩
abbrev main_v111 : Ref sig .tc := ⟨.hbm, 143, rfl⟩
abbrev main_v112 : Ref sig .tc := ⟨.hbm, 144, rfl⟩
abbrev main_cst_14 : Ref sig .tc := ⟨.hbm, 145, rfl⟩
abbrev main_v113 : Ref sig .tc := ⟨.hbm, 146, rfl⟩
abbrev main_v114 : Ref sig .tc := ⟨.hbm, 147, rfl⟩
abbrev main_cst_15 : Ref sig .tc := ⟨.hbm, 148, rfl⟩
abbrev main_call7_v0 : Ref sig .tc := ⟨.hbm, 149, rfl⟩
abbrev main_call7_v1 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_16 : Ref sig .tc := ⟨.hbm, 156, rfl⟩
abbrev main_cst_17 : Ref sig .tc := ⟨.hbm, 157, rfl⟩
abbrev main_call8_v0 : Ref sig .tc := ⟨.hbm, 158, rfl⟩
abbrev main_call8_v1 : Ref sig .tc := ⟨.hbm, 159, rfl⟩
abbrev main_call8_v2 : Ref sig .tc := ⟨.hbm, 160, rfl⟩
abbrev main_call8_v3 : Ref sig .tc := ⟨.hbm, 161, rfl⟩
abbrev main_call8_v4 : Ref sig .tc := ⟨.hbm, 162, rfl⟩
abbrev main_v120 : Ref sig .tc := ⟨.hbm, 163, rfl⟩
abbrev main_cst_18 : Ref sig .tc := ⟨.hbm, 164, rfl⟩
abbrev main_v121 : Ref sig .tc := ⟨.hbm, 165, rfl⟩
abbrev main_cst_19 : Ref sig .tc := ⟨.hbm, 166, rfl⟩
abbrev main_v122 : Ref sig .tc := ⟨.hbm, 167, rfl⟩
abbrev main_v123 : Ref sig .tc := ⟨.hbm, 168, rfl⟩
abbrev main_cst_20 : Ref sig .tc := ⟨.hbm, 169, rfl⟩
abbrev main_v124 : Ref sig .tc := ⟨.hbm, 170, rfl⟩
abbrev main_cst_21 : Ref sig .tc := ⟨.hbm, 171, rfl⟩
abbrev main_v125 : Ref sig .tc := ⟨.hbm, 172, rfl⟩

abbrev nD : Nat := 1
abbrev τ : Topo := Topo.v7x

variable {F : FTy → Type} [FloatOps F]

class Facts₀ : Prop where
  bcast_S32x2048x4_S32x2048x1x4_0_1_3 : S32x2048x4.BroadcastsInDim S32x2048x1x4 (![0, 1, 3] : Fin 3 → Fin S32x2048x1x4.rank)
  bcast_S32x512x4_S32x1x512x4_0_2_3 : S32x512x4.BroadcastsInDim S32x1x512x4 (![0, 2, 3] : Fin 3 → Fin S32x1x512x4.rank)
  slices_S32x2048x1x4_S32x2048x1x1_0_0_0_2 : S32x2048x1x4.Slices ![0, 0, 0, 2] S32x2048x1x1
  shapeCasts_S32x2048x1x1_S32x2048x1 : S32x2048x1x1.ShapeCasts S32x2048x1
  slices_S32x2048x1x4_S32x2048x1x1_0_0_0_0 : S32x2048x1x4.Slices ![0, 0, 0, 0] S32x2048x1x1
  bcast_S_S32x2048x1 : S_.BroadcastsInDim S32x2048x1 (![] : Fin 0 → Fin S32x2048x1.rank)
  slices_S32x2048x1x4_S32x2048x1x1_0_0_0_3 : S32x2048x1x4.Slices ![0, 0, 0, 3] S32x2048x1x1
  slices_S32x2048x1x4_S32x2048x1x1_0_0_0_1 : S32x2048x1x4.Slices ![0, 0, 0, 1] S32x2048x1x1
  slices_S32x1x512x4_S32x1x512x1_0_0_0_2 : S32x1x512x4.Slices ![0, 0, 0, 2] S32x1x512x1
  shapeCasts_S32x1x512x1_S32x1x512 : S32x1x512x1.ShapeCasts S32x1x512
  slices_S32x1x512x4_S32x1x512x1_0_0_0_0 : S32x1x512x4.Slices ![0, 0, 0, 0] S32x1x512x1
  bcast_S_S32x1x512 : S_.BroadcastsInDim S32x1x512 (![] : Fin 0 → Fin S32x1x512.rank)
  slices_S32x1x512x4_S32x1x512x1_0_0_0_3 : S32x1x512x4.Slices ![0, 0, 0, 3] S32x1x512x1
  slices_S32x1x512x4_S32x1x512x1_0_0_0_1 : S32x1x512x4.Slices ![0, 0, 0, 1] S32x1x512x1
  bcast_S32x2048x1_S32x2048x512_0_1_2 : S32x2048x1.BroadcastsInDim S32x2048x512 (![0, 1, 2] : Fin 3 → Fin S32x2048x512.rank)
  bcast_S32x1x512_S32x2048x512_0_1_2 : S32x1x512.BroadcastsInDim S32x2048x512 (![0, 1, 2] : Fin 3 → Fin S32x2048x512.rank)
  bcast_S_S32x2048x512 : S_.BroadcastsInDim S32x2048x512 (![] : Fin 0 → Fin S32x2048x512.rank)
  reducesTo_S32x2048x512_S32x2048_d2 : S32x2048x512.ReducesTo [2] S32x2048
  h_S_ : 0 < S_.numel
  bcast_S_S32x2048 : S_.BroadcastsInDim S32x2048 (![] : Fin 0 → Fin S32x2048.rank)
  reducesTo_S32x2048_S_d0_1 : S32x2048.ReducesTo [0, 1] S_

variable [Facts₀]

class Facts : Prop extends Facts₀ where

variable [Facts]
-- ==== Proof.GiouSpec.lean ====
/-
  The pairwise generalized intersection-over-union of two axis-aligned boxes, as a function on the
  extended reals, and the loss built from it: for every prediction the best overlap with any target,
  one minus that, summed over all predictions and divided by the batch size.

  A box is its four coordinates (x1, y1, x2, y2). The side of the interval [lo, hi] on the pixel grid is
  max (hi - lo + 1) 0; an area is the product of two sides. For a prediction p and a target t:
    inter = area of the intersection box (max of the low corners, min of the high corners),
    union = area p + area t - inter,
    iou   = max (inter / union) eps,
    outer = area of the smallest enclosing box (min of the low corners, max of the high corners),
    giou  = min (max (iou - (outer - union) / outer) (-1)) 1.
  The literals stay the words both programs print; none is ever evaluated here.
-/
import Idealize.ShloMosaic.PureOps.Ideal
import Idealize.ShloMosaic.Lib.ValueIdx

noncomputable section

namespace Cert.Giou

open Idealize.ShloMosaic Idealize.ShloMosaic.ValueIdx

/-- The words the two programs print: 1, 0, 1e-6 (as f32), -1, -∞ and the batch size 32. -/
abbrev one : EReal := Ideal.ofBits .f32 0x3F800000#32
abbrev zero : EReal := Ideal.ofBits .f32 0x00000000#32
abbrev eps : EReal := Ideal.ofBits .f32 0x358637BD#32
abbrev negOne : EReal := Ideal.ofBits .f32 0xBF800000#32
abbrev negInf : EReal := Ideal.ofBits .f32 0xFF800000#32
abbrev batch : EReal := Ideal.ofBits .f32 0x42000000#32

/-- The side of the pixel interval [lo, hi], never negative. -/
def side (lo hi : EReal) : EReal := max (hi - lo + one) zero

/-- The generalized intersection-over-union of the prediction (px1, py1, px2, py2) and the target
    (tx1, ty1, tx2, ty2), clipped to [-1, 1]. -/
def giou (px1 py1 px2 py2 tx1 ty1 tx2 ty2 : EReal) : EReal :=
  let predArea := side px1 px2 * side py1 py2
  let targArea := side tx1 tx2 * side ty1 ty2
  let inter := side (max px1 tx1) (min px2 tx2) * side (max py1 ty1) (min py2 ty2)
  let union := predArea + targArea - inter
  let iou := max (Ideal.div inter union) eps
  let outer := side (min px1 tx1) (max px2 tx2) * side (min py1 ty1) (max py2 ty2)
  min (max (iou - Ideal.div (outer - union) outer) negOne) one

/-- A prediction's best overlap with any of the G targets of its image: the greatest giou, from -∞. -/
def best {G : Nat} (p : Fin 4 → EReal) (T : Fin G → Fin 4 → EReal) : EReal :=
  (Finset.univ : Finset (Fin G)).fold max negInf
    (fun g => giou (p 0) (p 1) (p 2) (p 3) (T g 0) (T g 1) (T g 2) (T g 3))

/-- A prediction's loss: one minus its best overlap. -/
def rowLoss {G : Nat} (p : Fin 4 → EReal) (T : Fin G → Fin 4 → EReal) : EReal := one - best p T

/-- Prediction p of image b, as its four coordinates. -/
def predRow {B P : Nat} (X : (⟨3, ![B, P, 4]⟩ : Shape).Idx → EReal) (b : Fin B) (p : Fin P) : Fin 4 → EReal :=
  fun k => X (ix3 b p k)

/-- The targets of image b, each as its four coordinates. -/
def targRows {B G : Nat} (Y : (⟨3, ![B, G, 4]⟩ : Shape).Idx → EReal) (b : Fin B) : Fin G → Fin 4 → EReal :=
  fun g k => Y (ix3 b g k)

/-- The summed losses of the R predictions of a one-image block against that image's G targets: what one tile of
    predictions contributes. -/
def tileLoss {R G : Nat} (X : (⟨3, ![1, R, 4]⟩ : Shape).Idx → EReal) (Y : (⟨3, ![1, G, 4]⟩ : Shape).Idx → EReal) : EReal :=
  ∑ r : Fin R, rowLoss (predRow X 0 r) (targRows Y 0)

/-- The whole loss: the losses of all predictions of all images summed from zero, over the batch size. -/
def total {B P G : Nat} (X : (⟨3, ![B, P, 4]⟩ : Shape).Idx → EReal) (Y : (⟨3, ![B, G, 4]⟩ : Shape).Idx → EReal) : EReal :=
  Ideal.div (zero + ∑ b : Fin B, ∑ p : Fin P, rowLoss (predRow X b p) (targRows Y b)) batch

end Cert.Giou

end
-- ==== Proof.LibFoldLast.lean ====
/-
  Minimum and maximum reductions over the LAST axis, read at an index as a fold over that axis's coordinate.

  A `vector.multi_reduction <minimumf>` / `<maximumf>` and the host's one-operand `stablehlo.reduce` with a
  commutative and associative body fold, at a result index, over the set of source indices that drop to it. For the
  last axis of a rank-3 array `[A, B, C]` that set is `{(p, g, k) | k < C}` at the result index `(p, g)`, and for the
  last axis of a matrix `[A, B]` it is `{(p, k) | k < B}` at `p`: the folds below run over `k`, from the starting
  value left as it is written (the pattern of an infinity is never evaluated). All extents are arbitrary, so one
  statement serves a kernel's block and a reference's whole array.
-/
import Idealize.ShloMosaic.PureOps.Ideal.Laws
import Idealize.ShloMosaic.Lib.ValueIdx

noncomputable section

namespace Cert.Lib.FoldLast

open Idealize.ShloMosaic Idealize.ShloMosaic.ValueIdx

/-- The source index over `(p, g)` with `k` inserted on the last axis of a rank-3 shape is `(p, g, k)`. -/
theorem lift_last3 {A B C : Nat} (h : (⟨3, ![A, B, C]⟩ : Shape).Reduces [(2 : Fin 3)] ⟨2, ![A, B]⟩)
    (p : Fin A) (g : Fin B) (k : Fin C) : h.lift (ix2 p g) k = ix3 p g k := by
  funext c
  apply Fin.ext
  match c with
  | ⟨0, _⟩ => rfl
  | ⟨1, _⟩ => rfl
  | ⟨2, _⟩ => rfl

/-- The source index over `p` with `k` inserted on the last axis of a matrix is `(p, k)`. -/
theorem lift_last2 {A B : Nat} (h : (⟨2, ![A, B]⟩ : Shape).Reduces [(1 : Fin 2)] ⟨1, ![A]⟩)
    (p : Fin A) (k : Fin B) : h.lift (ix1 p) k = ix2 p k := by
  funext c
  apply Fin.ext
  match c with
  | ⟨0, _⟩ => rfl
  | ⟨1, _⟩ => rfl

variable {φ : FTy}

/-- A `multi_reduction <minimumf>` over the last axis of `[A, B, C]` at `(p, g)`: the fold of the minimum over `k` of
    the source at `(p, g, k)`. -/
theorem multiReduction_min_last3 {A B C : Nat} (x : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.minimumf.neutral φ hφ) (p : Fin A) (g : Fin B) :
    multiReduction .minimumf [(2 : Fin 3)] ⟨2, ![A, B]⟩ x acc h hφ hacc (ix2 p g)
      = (Finset.univ : Finset (Fin C)).fold FloatOps.minimumf (FloatOps.ofBits φ acc) (fun k => x (ix3 p g k)) := by
  rw [multiReduction_minimumf_eq_fold]
  refine (h.fold_filter_drop_single _ _ x (ix2 p g)).trans ?_
  exact congrArg (fun f => Finset.fold FloatOps.minimumf (FloatOps.ofBits φ acc) f (Finset.univ : Finset (Fin C)))
    (funext fun k => congrArg x (lift_last3 h p g k))

/-- A `multi_reduction <maximumf>` along the rows of `[A, B]` at `p`: the fold of the maximum over `k` of the source
    at `(p, k)`. -/
theorem multiReduction_max_last2 {A B : Nat} (x : FVec Ideal ⟨2, ![A, B]⟩ φ) (acc : BitVec φ.bits)
    (h : (⟨2, ![A, B]⟩ : Shape).Reduces [(1 : Fin 2)] ⟨1, ![A]⟩) (hφ : FKind.Formats φ)
    (hacc : acc = FKind.maximumf.neutral φ hφ) (p : Fin A) :
    multiReduction .maximumf [(1 : Fin 2)] ⟨1, ![A]⟩ x acc h hφ hacc (ix1 p)
      = (Finset.univ : Finset (Fin B)).fold FloatOps.maximumf (FloatOps.ofBits φ acc) (fun k => x (ix2 p k)) := by
  rw [multiReduction_maximumf_eq_fold]
  refine (h.fold_filter_drop_single _ _ x (ix1 p)).trans ?_
  exact congrArg (fun f => Finset.fold FloatOps.maximumf (FloatOps.ofBits φ acc) f (Finset.univ : Finset (Fin B)))
    (funext fun k => congrArg x (lift_last2 h p k))

/-- The host's reduce with a commutative and associative body over the last axis of `[A, B, C]` at `(p, g)`: the fold
    over `k` of the operand at `(p, g, k)`, from the rank-0 initial value's one element. -/
theorem hostReduce_last3 {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce f x init h' hu (ix2 p g)
      = (Finset.univ : Finset (Fin C)).fold f (init (Shape.Idx.first hu)) (fun k => x (ix3 p g k)) := by
  refine (Host.reduce_eq_fold_single f x init h' h hu (ix2 p g)).trans ?_
  exact congrArg (fun y => Finset.fold f (init (Shape.Idx.first hu)) y (Finset.univ : Finset (Fin C)))
    (funext fun k => congrArg x (lift_last3 h p g k))

/-- The same along the rows of a matrix `[A, B]` at `p`. -/
theorem hostReduce_last2 {α : Type} {A B : Nat} {u : Shape} (f : α → α → α) [Std.Commutative f] [Std.Associative f]
    (x : (⟨2, ![A, B]⟩ : Shape).Idx → α) (init : u.Idx → α)
    (h' : (⟨2, ![A, B]⟩ : Shape).ReducesTo [(1 : Fin 2)] ⟨1, ![A]⟩)
    (h : (⟨2, ![A, B]⟩ : Shape).Reduces [(1 : Fin 2)] ⟨1, ![A]⟩) (hu : 0 < u.numel) (p : Fin A) :
    Host.reduce f x init h' hu (ix1 p)
      = (Finset.univ : Finset (Fin B)).fold f (init (Shape.Idx.first hu)) (fun k => x (ix2 p k)) := by
  refine (Host.reduce_eq_fold_single f x init h' h hu (ix1 p)).trans ?_
  exact congrArg (fun y => Finset.fold f (init (Shape.Idx.first hu)) y (Finset.univ : Finset (Fin B)))
    (funext fun k => congrArg x (lift_last2 h p k))

end Cert.Lib.FoldLast

end
-- ==== Proof.RefValue.lean ====
/-
  The reference's result: the whole loss.

  The reference lays the predictions [32, 2048, 4] and the targets [32, 512, 4] out over the pairwise table
  [32, 2048, 512] by broadcasts, slices and reshapes, and computes there, entry by entry, the clipped generalized
  intersection-over-union of prediction p and target g of image b; it writes each clip with the bound first
  (max 0 x, min 1 (max (-1) x)), which is the same number as the bound last. A maximum over g from -∞, one minus that, a
  sum over all (b, p) from zero and a division by the batch size follow. Read entry by entry, every layout step is the
  array at an index whose coordinates compute to (b, p, k) or (b, g, k).
-/
import proofs.«172194_j16071767622181_2_alg».proof.Proof.RefRead
import proofs.«172194_j16071767622181_2_alg».proof.Proof.GiouSpec
import proofs.«172194_j16071767622181_2_alg».proof.Proof.LibFoldLast
import Idealize.ShloMosaic.Lib.ValueIdx
import Idealize.ShloMosaic.PureOps.Ideal.Laws

noncomputable section

open Idealize.ShloMosaic Idealize.ShloMosaic.ValueIdx

namespace Cert.ReferenceIdeal.Loss

open Cert.ReferenceIdeal Cert.ReferenceIdeal.Gen Cert.ReferenceIdeal.ReadP Cert.Giou

/-- An entry of a rank-3 array by its three coordinates. -/
def coord {n0 n1 n2 : Nat} {α : Type} (x : (⟨3, ![n0, n1, n2]⟩ : Shape).Idx → α) (a : Fin n0) (b : Fin n1) (c : Fin n2) : α :=
  x (ix3 a b c)

/-- Every entry is the entry at its own three coordinates. -/
theorem coord_eq {n0 n1 n2 : Nat} {α : Type} (x : (⟨3, ![n0, n1, n2]⟩ : Shape).Idx → α)
    (J : (⟨3, ![n0, n1, n2]⟩ : Shape).Idx) : x J = coord x (J 0) (J 1) (J 2) :=
  congrArg x (eq_ix3 J)

/-- The side of a pixel interval with the lower bound written first. -/
def sideR (lo hi : EReal) : EReal := max zero (hi - lo + one)

theorem sideR_eq (lo hi : EReal) : sideR lo hi = side lo hi := max_comm _ _

/-- The pairwise value as the reference writes it: every clip with its bound first. -/
def giouR (px1 py1 px2 py2 tx1 ty1 tx2 ty2 : EReal) : EReal :=
  let predArea := sideR px1 px2 * sideR py1 py2
  let targArea := sideR tx1 tx2 * sideR ty1 ty2
  let inter := sideR (max px1 tx1) (min px2 tx2) * sideR (max py1 ty1) (min py2 ty2)
  let union := predArea + targArea - inter
  let iou := max (Ideal.div inter union) eps
  let outer := sideR (min px1 tx1) (max px2 tx2) * sideR (min py1 ty1) (max py2 ty2)
  min one (max negOne (iou - Ideal.div (outer - union) outer))

/-- It is the same number: the maximum and the minimum of two numbers do not depend on their order. -/
theorem giouR_eq (px1 py1 px2 py2 tx1 ty1 tx2 ty2 : EReal) :
    giouR px1 py1 px2 py2 tx1 ty1 tx2 ty2 = giou px1 py1 px2 py2 tx1 ty1 tx2 ty2 := by
  unfold giouR giou
  simp only [sideR_eq]
  rw [min_comm one, max_comm negOne]

variable (x0 : S32x512x4.Idx → EReal) (x1 : S32x2048x4.Idx → EReal)

/-- An entry of the predictions read through a reshape of [32, 2048, 1]: its first two coordinates come back from the
    row-major position 2048 b + p by division and remainder, so they are b and p. -/
theorem predLeaf (J : S32x2048x4.Idx) (b : Fin 32) (p : Fin 2048) (k : Fin 4)
    (h0 : (J 0).val = ((b.val * 2048 + p.val) * 1 + 0) / 2048)
    (h1 : (J 1).val = ((b.val * 2048 + p.val) * 1 + 0) / 1 % 2048) (h2 : (J 2).val = k.val) :
    coord x1 (J 0) (J 1) (J 2) = coord x1 b p k := by
  have hp := p.isLt
  have e0 : J 0 = b := Fin.ext (by rw [h0]; omega)
  have e1 : J 1 = p := Fin.ext (by rw [h1]; omega)
  have e2 : J 2 = k := Fin.ext h2
  rw [e0, e1, e2]

/-- An entry of the targets read through a reshape of [32, 1, 512]: its first two coordinates come back from the row-major
    position 512 b + g by division and remainder, so they are b and g. -/
theorem targLeaf (J : S32x512x4.Idx) (b : Fin 32) (g : Fin 512) (k : Fin 4)
    (h0 : (J 0).val = ((b.val * 1 + 0) * 512 + g.val) / 512)
    (h1 : (J 1).val = ((b.val * 1 + 0) * 512 + g.val) / 1 % 512) (h2 : (J 2).val = k.val) :
    coord x0 (J 0) (J 1) (J 2) = coord x0 b g k := by
  have hg := g.isLt
  have e0 : J 0 = b := Fin.ext (by rw [h0]; omega)
  have e1 : J 1 = g := Fin.ext (by rw [h1]; omega)
  have e2 : J 2 = k := Fin.ext h2
  rw [e0, e1, e2]

/-- The clipped pairwise table at (b, p, g): prediction p and target g of image b. Each of the twelve reads of a prediction's
    coordinate goes through a broadcast along the targets' axis, a reshape, a slice of coordinate k and the broadcast that
    inserted the unit axis, and lands on (b, p, k); each of the twelve reads of a target's coordinate likewise on (b, g, k). -/
theorem clipped_apply (b : Fin 32) (p : Fin 2048) (g : Fin 512) :
    val_main_v120 (F := Ideal) x0 x1 (ix3 b p g)
      = giouR (coord x1 b p 0) (coord x1 b p 1) (coord x1 b p 2) (coord x1 b p 3)
          (coord x0 b g 0) (coord x0 b g 1) (coord x0 b g 2) (coord x0 b g 3) := by
  simp only [val_main_v0_apply, val_main_v1_apply, val_main_v2_apply, val_main_v3_apply, val_main_v4_apply,
    val_main_v5_apply, val_main_v6_apply, val_main_cst_apply, val_main_v7_apply, val_main_v8_apply,
    val_main_cst_0_apply, val_main_call0_v0_apply, val_main_call0_v1_apply, val_main_v9_apply, val_main_v10_apply,
    val_main_v11_apply, val_main_v12_apply, val_main_v13_apply, val_main_v14_apply, val_main_cst_1_apply,
    val_main_v15_apply, val_main_v16_apply, val_main_cst_2_apply, val_main_call1_v0_apply, val_main_call1_v1_apply,
    val_main_v17_apply, val_main_v18_apply, val_main_v19_apply, val_main_v20_apply, val_main_v21_apply,
    val_main_v22_apply, val_main_cst_3_apply, val_main_v23_apply, val_main_v24_apply, val_main_cst_4_apply,
    val_main_call2_v0_apply, val_main_call2_v1_apply, val_main_v25_apply, val_main_v26_apply, val_main_v27_apply,
    val_main_v28_apply, val_main_v29_apply, val_main_v30_apply, val_main_cst_5_apply, val_main_v31_apply,
    val_main_v32_apply, val_main_cst_6_apply, val_main_call3_v0_apply, val_main_call3_v1_apply, val_main_v33_apply,
    val_main_v34_apply, val_main_v35_apply, val_main_v36_apply, val_main_v37_apply, val_main_v38_apply,
    val_main_v39_apply, val_main_v40_apply, val_main_v41_apply, val_main_v42_apply, val_main_v43_apply,
    val_main_v44_apply, val_main_v45_apply, val_main_v46_apply, val_main_v47_apply, val_main_v48_apply,
    val_main_v49_apply, val_main_v50_apply, val_main_v51_apply, val_main_v52_apply, val_main_v53_apply,
    val_main_v54_apply, val_main_v55_apply, val_main_v56_apply, val_main_v57_apply, val_main_v58_apply,
    val_main_v59_apply, val_main_v60_apply, val_main_v61_apply, val_main_v62_apply, val_main_v63_apply,
    val_main_v64_apply, val_main_cst_7_apply, val_main_v65_apply, val_main_v66_apply, val_main_cst_8_apply,
    val_main_call4_v0_apply, val_main_call4_v1_apply, val_main_v67_apply, val_main_v68_apply, val_main_cst_9_apply,
    val_main_v69_apply, val_main_v70_apply, val_main_cst_10_apply, val_main_call5_v0_apply, val_main_call5_v1_apply,
    val_main_v71_apply, val_main_v72_apply, val_main_v73_apply, val_main_v74_apply, val_main_v75_apply,
    val_main_v76_apply, val_main_v77_apply, val_main_cst_11_apply, val_main_v78_apply, val_main_v79_apply,
    val_main_v80_apply, val_main_v81_apply, val_main_v82_apply, val_main_v83_apply, val_main_v84_apply,
    val_main_v85_apply, val_main_v86_apply, val_main_v87_apply, val_main_v88_apply, val_main_v89_apply,
    val_main_v90_apply, val_main_v91_apply, val_main_v92_apply, val_main_v93_apply, val_main_v94_apply,
    val_main_v95_apply, val_main_v96_apply, val_main_v97_apply, val_main_v98_apply, val_main_v99_apply,
    val_main_v100_apply, val_main_v101_apply, val_main_v102_apply, val_main_v103_apply, val_main_v104_apply,
    val_main_v105_apply, val_main_v106_apply, val_main_v107_apply, val_main_v108_apply, val_main_cst_12_apply,
    val_main_v109_apply, val_main_v110_apply, val_main_cst_13_apply, val_main_call6_v0_apply, val_main_call6_v1_apply,
    val_main_v111_apply, val_main_v112_apply, val_main_cst_14_apply, val_main_v113_apply, val_main_v114_apply,
    val_main_cst_15_apply, val_main_call7_v0_apply, val_main_call7_v1_apply, val_main_v115_apply, val_main_v116_apply,
    val_main_v117_apply, val_main_v118_apply, val_main_v119_apply, val_main_cst_16_apply, val_main_cst_17_apply,
    val_main_call8_v0_apply, val_main_call8_v1_apply, val_main_call8_v2_apply, val_main_call8_v3_apply, val_main_call8_v4_apply,
    val_main_v120_apply]
  simp only [coord_eq x1, coord_eq x0]
  simp only [predLeaf x1 (idx_main_v0 (idx_main_v2 (idx_main_v3 (idx_main_v73 (ix3 b p g))))) b p 2 rfl rfl rfl,
    predLeaf x1 (idx_main_v0 (idx_main_v4 (idx_main_v5 (idx_main_v73 (ix3 b p g))))) b p 0 rfl rfl rfl,
    predLeaf x1 (idx_main_v0 (idx_main_v10 (idx_main_v11 (idx_main_v73 (ix3 b p g))))) b p 3 rfl rfl rfl,
    predLeaf x1 (idx_main_v0 (idx_main_v12 (idx_main_v13 (idx_main_v73 (ix3 b p g))))) b p 1 rfl rfl rfl,
    predLeaf x1 (idx_main_v0 (idx_main_v36 (idx_main_v37 (idx_main_v40 (ix3 b p g))))) b p 0 rfl rfl rfl,
    predLeaf x1 (idx_main_v0 (idx_main_v43 (idx_main_v44 (idx_main_v47 (ix3 b p g))))) b p 1 rfl rfl rfl,
    predLeaf x1 (idx_main_v0 (idx_main_v50 (idx_main_v51 (idx_main_v54 (ix3 b p g))))) b p 2 rfl rfl rfl,
    predLeaf x1 (idx_main_v0 (idx_main_v57 (idx_main_v58 (idx_main_v61 (ix3 b p g))))) b p 3 rfl rfl rfl,
    predLeaf x1 (idx_main_v0 (idx_main_v80 (idx_main_v81 (idx_main_v84 (ix3 b p g))))) b p 0 rfl rfl rfl,
    predLeaf x1 (idx_main_v0 (idx_main_v87 (idx_main_v88 (idx_main_v91 (ix3 b p g))))) b p 1 rfl rfl rfl,
    predLeaf x1 (idx_main_v0 (idx_main_v94 (idx_main_v95 (idx_main_v98 (ix3 b p g))))) b p 2 rfl rfl rfl,
    predLeaf x1 (idx_main_v0 (idx_main_v101 (idx_main_v102 (idx_main_v105 (ix3 b p g))))) b p 3 rfl rfl rfl,
    targLeaf x0 (idx_main_v1 (idx_main_v18 (idx_main_v19 (idx_main_v74 (ix3 b p g))))) b g 2 rfl rfl rfl,
    targLeaf x0 (idx_main_v1 (idx_main_v20 (idx_main_v21 (idx_main_v74 (ix3 b p g))))) b g 0 rfl rfl rfl,
    targLeaf x0 (idx_main_v1 (idx_main_v26 (idx_main_v27 (idx_main_v74 (ix3 b p g))))) b g 3 rfl rfl rfl,
    targLeaf x0 (idx_main_v1 (idx_main_v28 (idx_main_v29 (idx_main_v74 (ix3 b p g))))) b g 1 rfl rfl rfl,
    targLeaf x0 (idx_main_v1 (idx_main_v38 (idx_main_v39 (idx_main_v41 (ix3 b p g))))) b g 0 rfl rfl rfl,
    targLeaf x0 (idx_main_v1 (idx_main_v45 (idx_main_v46 (idx_main_v48 (ix3 b p g))))) b g 1 rfl rfl rfl,
    targLeaf x0 (idx_main_v1 (idx_main_v52 (idx_main_v53 (idx_main_v55 (ix3 b p g))))) b g 2 rfl rfl rfl,
    targLeaf x0 (idx_main_v1 (idx_main_v59 (idx_main_v60 (idx_main_v62 (ix3 b p g))))) b g 3 rfl rfl rfl,
    targLeaf x0 (idx_main_v1 (idx_main_v82 (idx_main_v83 (idx_main_v85 (ix3 b p g))))) b g 0 rfl rfl rfl,
    targLeaf x0 (idx_main_v1 (idx_main_v89 (idx_main_v90 (idx_main_v92 (ix3 b p g))))) b g 1 rfl rfl rfl,
    targLeaf x0 (idx_main_v1 (idx_main_v96 (idx_main_v97 (idx_main_v99 (ix3 b p g))))) b g 2 rfl rfl rfl,
    targLeaf x0 (idx_main_v1 (idx_main_v103 (idx_main_v104 (idx_main_v106 (ix3 b p g))))) b g 3 rfl rfl rfl]
  simp only [Ideal.maximumf_def, Ideal.minimumf_def, Ideal.subf_def, Ideal.addf_def, Ideal.mulf_def, Ideal.hostDivf_def,
    Ideal.ofBits_def]
  unfold giouR sideR
  rfl

/-- The best overlap of prediction p of image b: the maximum over the targets, from -∞. -/
theorem best_apply (b : Fin 32) (p : Fin 2048) :
    val_main_v121 (F := Ideal) x0 x1 (ix2 b p) = best (predRow x1 b p) (targRows x0 b) := by
  unfold val_main_v121
  refine (Cert.Lib.FoldLast.hostReduce_last3 (FloatOps.maximumf : Ideal .f32 → Ideal .f32 → Ideal .f32)
    (val_main_v120 (F := Ideal) x0 x1) (val_main_cst_18 (F := Ideal)) reducesTo_S32x2048x512_S32x2048_d2 (by decide) h_S_ b p).trans ?_
  unfold best
  refine congrArg (fun f => (Finset.univ : Finset (Fin 512)).fold max negInf f) (funext fun g => ?_)
  rw [clipped_apply, giouR_eq]
  rfl

/-- The loss of prediction p of image b. -/
theorem loss_apply (b : Fin 32) (p : Fin 2048) :
    val_main_v123 (F := Ideal) x0 x1 (ix2 b p) = rowLoss (predRow x1 b p) (targRows x0 b) := by
  rw [val_main_v123_apply, val_main_v122_apply, best_apply]
  rfl

/-- The reference's result: the whole loss of the predictions x1 against the targets x0. -/
theorem result_eq : val_main_v125 (F := Ideal) x0 x1 = fun _ => total x1 x0 := by
  funext i
  rw [val_main_v125_apply, val_main_v124_apply, sum_idx2]
  simp only [loss_apply]
  rfl

end Cert.ReferenceIdeal.Loss

end
-- ==== Proof.TileStep.lean ====
/-
  One grid point's update of the accumulator, as a function.

  At every grid point the kernel's body loads its block of predictions x0 and its image's block of targets x1, computes from
  them one [1, 1] value, and stores the accumulator's previous contents plus that value. `step x0 x1 acc` is that store's
  value, in the body's own arithmetic.
-/
import proofs.«172194_j16071767622181_2_alg».proof.Proof.Gen.KernelIdeal.Skeleton

noncomputable section

open Idealize.ShloMosaic

namespace Cert.KernelIdeal.Tile

open Cert.KernelIdeal Cert.KernelIdeal.Gen

variable {F : FTy → Type} [FloatOps F]

/-- The accumulator after one grid point: its previous contents `acc` plus the tile's value, computed from the block of
    predictions `x0` and the block of targets `x1`. -/
def step (x0 x1 : Vec F S1x512x4 .f32) (acc : Vec F S1x1 .f32) : Vec F S1x1 .f32 :=
  k0_pay1
    (k0_pay17 (k0_pay5 x0) (k0_pay6 x0) (k0_pay7 x0) (k0_pay9 x1) (k0_pay10 x1) (k0_pay11 x1) (k0_pay12 x0) (k0_pay13 x1)
      (k0_pay14 x0) (k0_pay15 x1))
    (k0_pay18 (k0_pay5 x0) (k0_pay6 x0) (k0_pay7 x0) (k0_pay9 x1) (k0_pay10 x1) (k0_pay11 x1) (k0_pay12 x0) (k0_pay13 x1)
      (k0_pay14 x0) (k0_pay15 x1))
    (k0_pay19 (k0_pay4 x0) (k0_pay5 x0) (k0_pay6 x0) (k0_pay7 x0) (k0_pay8 x1) (k0_pay9 x1) (k0_pay10 x1) (k0_pay11 x1))
    acc

end Cert.KernelIdeal.Tile

end
-- ==== Proof.TileCases.lean ====
/-
  What one grid point leaves in the accumulator's staging buffer, read off the two runs of the body as a value.

  At every grid point the body loads its block of predictions x0 and its image's block of targets x1, computes from them one
  [1, 1] value and stores the accumulator's previous contents plus that value. At the first grid point it first stores the
  zero block, so the previous contents are that zero block; at every other point they are what the point before left. Both
  cases are therefore ONE function `step x0 x1 acc` of the two blocks and the previous contents (its definition is in the
  module imported below): the body's single covering store, whose loads read whole buffers.
-/
import proofs.«172194_j16071767622181_2_alg».proof.Proof.Gen.KernelIdeal.Frame
import proofs.«172194_j16071767622181_2_alg».proof.Proof.TileStep
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Every grid point but the first: the staging buffer holding `xo` ends at `step x0 x1 xo`. -/
theorem out_B (c : Dev nD) (i : grid0.Coords) (a2 : Memref sig .tc .vmem S1x512x4 .f32) (h2 : a2.IsWhole)
    (a3 : Memref sig .tc .vmem S1x512x4 .f32) (h3 : a3.IsWhole) (a4 : Memref sig .tc .vmem S1x1 .f32) (h4 : a4.IsWhole)
    (hc : ¬cond0_0 i) (x0 x1 : Vec F S1x512x4 .f32) (xo : Vec F S1x1 .f32) :
    out0_B_2 c i a2 h2 a3 h3 a4 h4 hc x0 x1 xo = step x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S1x512x4) hz3,
    View.ld_unit_zero (S := S1x1) hz2]
  rfl

/-- The first grid point: the body stores the zero block, reads it back, and ends at `step x0 x1` of that zero block. -/
theorem out_A (c : Dev nD) (i : grid0.Coords) (a2 : Memref sig .tc .vmem S1x512x4 .f32) (h2 : a2.IsWhole)
    (a3 : Memref sig .tc .vmem S1x512x4 .f32) (h3 : a3.IsWhole) (a4 : Memref sig .tc .vmem S1x1 .f32) (h4 : a4.IsWhole)
    (hc : cond0_0 i) (x0 x1 : Vec F S1x512x4 .f32) :
    out0_A_2 c i a2 h2 a3 h3 a4 h4 hc x0 x1 = step x0 x1 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S1x512x4) hz3]
  rfl

end Cert.KernelIdeal.Tile

end
-- ==== Proof.LibMaxLast.lean ====
/-
  The maximum over the last axis, from a given starting word, read at an index as a `Finset` fold of `max` over that
  axis's coordinate: a kernel's `vector.multi_reduction <maximumf>` over the last axis of a rank-3 array, and the host's
  `stablehlo.reduce` with a maximum body over the last axis of a rank-4 array. The starting value is left as the word
  both programs print (`Ideal.ofBits .f32 0xFF800000`, which is `-∞`), so the two sides meet without evaluating it.
  Generic in the extents.
-/
import Idealize.ShloMosaic.PureOps.Ideal.Laws
import Idealize.ShloMosaic.PureOps.Reduce
import Idealize.ShloMosaic.Lib.ValueIdx

noncomputable section

namespace Cert.LibMaxLast

open Idealize.ShloMosaic Idealize.ShloMosaic.ValueIdx

/-- A kernel's maximum over the last axis of a rank-3 array: entry (a, b) is the greatest of the starting word and the
    entries (a, b, k). -/
theorem max_last3 {A B C : Nat} (v : FVec Ideal ⟨3, ![A, B, C]⟩ .f32)
    (h : (⟨3, ![A, B, C]⟩ : Shape).Reduces [2] ⟨2, ![A, B]⟩) (hφ : FKind.Formats FTy.f32)
    (hacc : (0xFF800000#32 : BitVec 32) = 0xFF800000#32) (a : Fin A) (b : Fin B) :
    multiReduction .maximumf [2] ⟨2, ![A, B]⟩ v 0xFF800000#32 h hφ hacc (ix2 a b)
      = (Finset.univ : Finset (Fin C)).fold max (Ideal.ofBits .f32 0xFF800000#32) (fun k => v (ix3 a b k)) := by
  refine (Ideal.multiReduction_maximumf_single v 0xFF800000#32 h hφ hacc (ix2 a b)).trans ?_
  show (Finset.univ : Finset (Fin C)).fold max (Ideal.ofBits .f32 0xFF800000#32) _ = _
  refine congrArg (fun f => (Finset.univ : Finset (Fin C)).fold max (Ideal.ofBits .f32 0xFF800000#32) f) ?_
  funext k
  refine congrArg v ?_
  funext d
  apply Fin.ext
  match d with
  | ⟨0, _⟩ => rfl
  | ⟨1, _⟩ => rfl
  | ⟨2, _⟩ => rfl

/-- The host's maximum over the last axis of a rank-4 array from a rank-0 initial value: entry (a, b, c) is the greatest
    of the initial value and the entries (a, b, c, k). -/
theorem hostMax_last4 {A B C D : Nat} (x : FVec Ideal ⟨4, ![A, B, C, D]⟩ .f32) (init : (⟨0, ![]⟩ : Shape).Idx → Ideal .f32)
    (h' : (⟨4, ![A, B, C, D]⟩ : Shape).ReducesTo [3] ⟨3, ![A, B, C]⟩)
    (h : (⟨4, ![A, B, C, D]⟩ : Shape).Reduces [3] ⟨3, ![A, B, C]⟩) (hu : 0 < (⟨0, ![]⟩ : Shape).numel)
    (a : Fin A) (b : Fin B) (c : Fin C) :
    Host.reduce FloatOps.maximumf x init h' hu (ix3 a b c)
      = (Finset.univ : Finset (Fin D)).fold max (init (Shape.Idx.first hu)) (fun k => x (ix4 a b c k)) := by
  rw [Host.reduce_eq_fold_single FloatOps.maximumf x init h' h hu]
  show (Finset.univ : Finset (Fin D)).fold max (init (Shape.Idx.first hu)) _ = _
  refine congrArg (fun f => (Finset.univ : Finset (Fin D)).fold max (init (Shape.Idx.first hu)) f) ?_
  funext k
  refine congrArg x ?_
  funext d
  apply Fin.ext
  match d with
  | ⟨0, _⟩ => rfl
  | ⟨1, _⟩ => rfl
  | ⟨2, _⟩ => rfl
  | ⟨3, _⟩ => rfl

end Cert.LibMaxLast

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«172194_j16071767622181_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.TilePayload.lean ====
/-
  One tile's arithmetic over the extended reals.

  A tile is a block x0 of 512 predictions and the block x1 of its image's 512 targets, each box its four coordinates
  (x1, y1, x2, y2). The body lays the predictions' coordinates out as columns [1, 512, 1] and the targets' as rows
  [1, 1, 512] (a transpose, then a slice), broadcasts both to the pairwise table [1, 512, 512], and computes there, entry by
  entry, the clipped generalized intersection-over-union of prediction r and target g; a maximum over g from -∞, one
  minus that, and a sum over r give the tile's value, which is added to the accumulator's one entry. Read at that entry, the
  accumulator after the step is its previous value plus the summed losses of the tile's predictions (`step_apply`).
  Every operation is read at an entry: the layout steps for any element type, the arithmetic at the extended reals.
-/
import proofs.«172194_j16071767622181_2_alg».proof.Proof.TileStep
import proofs.«172194_j16071767622181_2_alg».proof.Proof.GiouSpec
import proofs.«172194_j16071767622181_2_alg».proof.Proof.LibMaxLast
import proofs.«172194_j16071767622181_2_alg».proof.Proof.LibRowReduce
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen Cert.Giou

/-! ## The layout steps, for any element type -/

section Layout

variable {α : Type}

/-- Coordinate k of the boxes, kept as a column: entry (0, r, 0) is coordinate k of box r. -/
theorem col_apply (x : S1x512x4.Idx → α) (off : Nat) (k : Fin 4) (hk : k.val = off)
    (h : S1x512x4.Slices ![0, 0, off] S1x512x1) (r : Fin 512) :
    extractStridedSlice S1x512x1 ![0, 0, off] x h (ix3 0 r 0) = x (ix3 0 r k) :=
  extractStridedSlice_apply _ x h _ _ (fun a => by
    match a with
    | ⟨0, _⟩ => rfl
    | ⟨1, _⟩ => show r.val = 0 + r.val; omega
    | ⟨2, _⟩ => show k.val = off + 0; omega)

theorem col0 (x : S1x512x4.Idx → α) (h : S1x512x4.Slices ![0, 0, 0] S1x512x1) (r : Fin 512) :
    extractStridedSlice S1x512x1 ![0, 0, 0] x h (ix3 0 r 0) = x (ix3 0 r 0) := col_apply x 0 0 rfl h r
theorem col1 (x : S1x512x4.Idx → α) (h : S1x512x4.Slices ![0, 0, 1] S1x512x1) (r : Fin 512) :
    extractStridedSlice S1x512x1 ![0, 0, 1] x h (ix3 0 r 0) = x (ix3 0 r 1) := col_apply x 1 1 rfl h r
theorem col2 (x : S1x512x4.Idx → α) (h : S1x512x4.Slices ![0, 0, 2] S1x512x1) (r : Fin 512) :
    extractStridedSlice S1x512x1 ![0, 0, 2] x h (ix3 0 r 0) = x (ix3 0 r 2) := col_apply x 2 2 rfl h r
theorem col3 (x : S1x512x4.Idx → α) (h : S1x512x4.Slices ![0, 0, 3] S1x512x1) (r : Fin 512) :
    extractStridedSlice S1x512x1 ![0, 0, 3] x h (ix3 0 r 0) = x (ix3 0 r 3) := col_apply x 3 3 rfl h r

/-- Coordinate k of the boxes, laid along the last axis (the block transposed to [1, 4, 512], then row k): entry
    (0, 0, g) is coordinate k of box g. -/
theorem row_apply (y : S1x512x4.Idx → α) (ht : S1x512x4.Transposes [0, 2, 1] S1x4x512) (off : Nat) (k : Fin 4)
    (hk : k.val = off) (hs : S1x4x512.Slices ![0, off, 0] S1x1x512) (g : Fin 512) :
    extractStridedSlice S1x1x512 ![0, off, 0] (transpose S1x4x512 [0, 2, 1] y ht) hs (ix3 0 0 g) = y (ix3 0 g k) :=
  (extractStridedSlice_apply _ _ hs (ix3 0 0 g) (ix3 0 k g) (fun a => by
    match a with
    | ⟨0, _⟩ => rfl
    | ⟨1, _⟩ => show k.val = off + 0; omega
    | ⟨2, _⟩ => show g.val = 0 + g.val; omega)).trans
  (transpose_apply _ y ht (ix3 0 k g) (ix3 0 g k) (fun b => by
    match b with
    | ⟨0, _⟩ => rfl
    | ⟨1, _⟩ => rfl
    | ⟨2, _⟩ => rfl))

theorem row0 (y : S1x512x4.Idx → α) (ht : S1x512x4.Transposes [0, 2, 1] S1x4x512)
    (hs : S1x4x512.Slices ![0, 0, 0] S1x1x512) (g : Fin 512) :
    extractStridedSlice S1x1x512 ![0, 0, 0] (transpose S1x4x512 [0, 2, 1] y ht) hs (ix3 0 0 g) = y (ix3 0 g 0) :=
  row_apply y ht 0 0 rfl hs g
theorem row1 (y : S1x512x4.Idx → α) (ht : S1x512x4.Transposes [0, 2, 1] S1x4x512)
    (hs : S1x4x512.Slices ![0, 1, 0] S1x1x512) (g : Fin 512) :
    extractStridedSlice S1x1x512 ![0, 1, 0] (transpose S1x4x512 [0, 2, 1] y ht) hs (ix3 0 0 g) = y (ix3 0 g 1) :=
  row_apply y ht 1 1 rfl hs g
theorem row2 (y : S1x512x4.Idx → α) (ht : S1x512x4.Transposes [0, 2, 1] S1x4x512)
    (hs : S1x4x512.Slices ![0, 2, 0] S1x1x512) (g : Fin 512) :
    extractStridedSlice S1x1x512 ![0, 2, 0] (transpose S1x4x512 [0, 2, 1] y ht) hs (ix3 0 0 g) = y (ix3 0 g 2) :=
  row_apply y ht 2 2 rfl hs g
theorem row3 (y : S1x512x4.Idx → α) (ht : S1x512x4.Transposes [0, 2, 1] S1x4x512)
    (hs : S1x4x512.Slices ![0, 3, 0] S1x1x512) (g : Fin 512) :
    extractStridedSlice S1x1x512 ![0, 3, 0] (transpose S1x4x512 [0, 2, 1] y ht) hs (ix3 0 0 g) = y (ix3 0 g 3) :=
  row_apply y ht 3 3 rfl hs g

/-- A column of per-prediction values repeated along the targets' axis: entry (0, r, g) is the column's entry r. -/
theorem bcastCol_apply (u : S1x512x1.Idx → α) (h : S1x512x1.Broadcasts S1x512x512) (r g : Fin 512) :
    broadcastTo S1x512x512 u h (ix3 0 r g) = u (ix3 0 r 0) :=
  broadcastTo_apply u h _ _ (fun a => by
    match a with
    | ⟨0, _⟩ => rfl
    | ⟨1, _⟩ => rfl
    | ⟨2, _⟩ => rfl)

/-- A row of per-target values repeated along the predictions' axis: entry (0, r, g) is the row's entry g. -/
theorem bcastRow_apply (w : S1x1x512.Idx → α) (h : S1x1x512.Broadcasts S1x512x512) (r g : Fin 512) :
    broadcastTo S1x512x512 w h (ix3 0 r g) = w (ix3 0 0 g) :=
  broadcastTo_apply w h _ _ (fun a => by
    match a with
    | ⟨0, _⟩ => rfl
    | ⟨1, _⟩ => rfl
    | ⟨2, _⟩ => rfl)

/-- A per-prediction value [1, 512] kept as a column [1, 512, 1]: entry (0, r, 0) is the value of prediction r. -/
theorem keep_apply (v : S1x512.Idx → α) (h : S1x512.ShapeCasts S1x512x1) (r : Fin 512) :
    shapeCast S1x512x1 v h (ix3 0 r 0) = v (ix2 0 r) :=
  shapeCast_apply v h _ _ (by
    rw [Shape.rowMajor_val_two, Shape.rowMajor_val_three]
    show (0 : Nat) * 512 + r.val = ((0 : Nat) * 512 + r.val) * 1 + 0
    omega)

end Layout

/-! ## The arithmetic, at the extended reals -/

section Arithmetic

/-- The area of prediction r. -/
theorem predArea_apply (x0 : Vec Ideal S1x512x4 .f32) (r : Fin 512) :
    k0_pay12 x0 (ix3 0 r 0) = side (x0 (ix3 0 r 0)) (x0 (ix3 0 r 2)) * side (x0 (ix3 0 r 1)) (x0 (ix3 0 r 3)) := by
  unfold k0_pay12 k0_pay4 k0_pay5 k0_pay6 k0_pay7 side
  simp only [mulf_apply, maximumf_apply, addf_apply, subf_apply, broadcast_apply, col0, col1, col2, col3]
  rfl

/-- The area of target g. -/
theorem targArea_apply (x1 : Vec Ideal S1x512x4 .f32) (g : Fin 512) :
    k0_pay13 x1 (ix3 0 0 g) = side (x1 (ix3 0 g 0)) (x1 (ix3 0 g 2)) * side (x1 (ix3 0 g 1)) (x1 (ix3 0 g 3)) := by
  unfold k0_pay13 k0_pay8 k0_pay9 k0_pay10 k0_pay11 k0_pay3 side
  simp only [mulf_apply, maximumf_apply, addf_apply, subf_apply, broadcast_apply]
  rw [row0, row1, row2, row3]
  rfl

/-- The predictions' low x corner, over the pairwise table. -/
theorem predX1_apply (x0 : Vec Ideal S1x512x4 .f32) (r g : Fin 512) : k0_pay14 x0 (ix3 0 r g) = x0 (ix3 0 r 0) := by
  unfold k0_pay14 k0_pay4
  simp only [bcastCol_apply, col0]

/-- The targets' low x corner, over the pairwise table. -/
theorem targX1_apply (x1 : Vec Ideal S1x512x4 .f32) (r g : Fin 512) : k0_pay15 x1 (ix3 0 r g) = x1 (ix3 0 g 0) := by
  unfold k0_pay15 k0_pay8 k0_pay3
  simp only [bcastRow_apply]
  rw [row0]

variable (v8 v9 v10 v11 : FVec Ideal S1x512x1 .f32) (v12 v13 v14 v15 : FVec Ideal S1x1x512 .f32)
  (v26 : FVec Ideal S1x512x1 .f32) (v37 : FVec Ideal S1x1x512 .f32) (v38 v39 : FVec Ideal S1x512x512 .f32) (r g : Fin 512)

/-- The intersection's area at (r, g): the sides between the greater low corner and the lesser high corner. -/
theorem inter_apply :
    k0_pay16 v9 v10 v11 v13 v14 v15 v38 v39 (ix3 0 r g)
      = side (max (v38 (ix3 0 r g)) (v39 (ix3 0 r g))) (min (v10 (ix3 0 r 0)) (v14 (ix3 0 0 g)))
        * side (max (v9 (ix3 0 r 0)) (v13 (ix3 0 0 g))) (min (v11 (ix3 0 r 0)) (v15 (ix3 0 0 g))) := by
  unfold k0_pay16 side
  simp only [mulf_apply, maximumf_apply, minimumf_apply, addf_apply, subf_apply, broadcast_apply, bcastCol_apply,
    bcastRow_apply]
  rfl

/-- The union's area at (r, g): the two areas less the intersection's. -/
theorem union_apply :
    k0_pay17 v9 v10 v11 v13 v14 v15 v26 v37 v38 v39 (ix3 0 r g)
      = v26 (ix3 0 r 0) + v37 (ix3 0 0 g) - k0_pay16 v9 v10 v11 v13 v14 v15 v38 v39 (ix3 0 r g) := by
  unfold k0_pay17
  simp only [addf_apply, subf_apply, bcastCol_apply, bcastRow_apply]

/-- The intersection over the union at (r, g), never below the small constant. -/
theorem iou_apply :
    k0_pay18 v9 v10 v11 v13 v14 v15 v26 v37 v38 v39 (ix3 0 r g)
      = max (Ideal.div (k0_pay16 v9 v10 v11 v13 v14 v15 v38 v39 (ix3 0 r g))
          (k0_pay17 v9 v10 v11 v13 v14 v15 v26 v37 v38 v39 (ix3 0 r g))) eps := by
  unfold k0_pay18
  simp only [maximumf_apply, divf_apply, broadcast_apply]
  rfl

/-- The enclosing box's area at (r, g): the sides between the lesser low corner and the greater high corner. -/
theorem outer_apply :
    k0_pay19 v8 v9 v10 v11 v12 v13 v14 v15 (ix3 0 r g)
      = side (min (v8 (ix3 0 r 0)) (v12 (ix3 0 0 g))) (max (v10 (ix3 0 r 0)) (v14 (ix3 0 0 g)))
        * side (min (v9 (ix3 0 r 0)) (v13 (ix3 0 0 g))) (max (v11 (ix3 0 r 0)) (v15 (ix3 0 0 g))) := by
  unfold k0_pay19 side
  simp only [mulf_apply, maximumf_apply, minimumf_apply, addf_apply, subf_apply, broadcast_apply, bcastCol_apply,
    bcastRow_apply]
  rfl

end Arithmetic

/-- The accumulator's one entry after a step, from the union, iou and enclosing-area tables: its previous value plus the
    sum over the predictions of one minus the greatest clipped giou over the targets. -/
theorem acc_apply (v64 v67 v90 : FVec Ideal S1x512x512 .f32) (acc : Vec Ideal S1x1 .f32) :
    k0_pay1 v64 v67 v90 acc (ix2 0 0)
      = acc (ix2 0 0) + ∑ r : Fin 512, (one - (Finset.univ : Finset (Fin 512)).fold max negInf
          (fun g => min (max (v67 (ix3 0 r g) - Ideal.div (v90 (ix3 0 r g) - v64 (ix3 0 r g)) (v90 (ix3 0 r g))) negOne) one)) := by
  unfold k0_pay1
  simp only [addf_apply]
  rw [shapeCast_self]
  refine congrArg (fun z => acc (ix2 0 0) + z) ?_
  refine (Cert.LibRowReduce.sum_mid3 _ _ _ _ 0 0).trans ?_
  refine Finset.sum_congr rfl fun r _ => ?_
  simp only [subf_apply, broadcast_apply, keep_apply]
  refine congrArg (fun z => one - z) ?_
  refine (Cert.LibMaxLast.max_last3 _ _ _ _ 0 r).trans ?_
  rfl

/-- One step at the accumulator's entry: the previous value plus the summed losses of the tile's predictions against
    their image's targets. -/
theorem step_apply (x0 x1 : Vec Ideal S1x512x4 .f32) (acc : Vec Ideal S1x1 .f32) :
    step x0 x1 acc (ix2 0 0) = acc (ix2 0 0) + tileLoss x0 x1 := by
  unfold step
  rw [acc_apply]
  refine congrArg (fun z => acc (ix2 0 0) + z) ?_
  unfold tileLoss rowLoss best
  refine Finset.sum_congr rfl fun r _ => ?_
  refine congrArg (fun z => one - z) ?_
  refine congrArg (fun f => (Finset.univ : Finset (Fin 512)).fold max negInf f) (funext fun g => ?_)
  rw [iou_apply, outer_apply, union_apply, inter_apply, predArea_apply, targArea_apply, predX1_apply, targX1_apply]
  unfold k0_pay4 k0_pay5 k0_pay6 k0_pay7 k0_pay8 k0_pay9 k0_pay10 k0_pay11 k0_pay3
  simp only [col0, col1, col2, col3]
  rw [row0, row1, row2, row3]
  rfl

end Cert.KernelIdeal.Tile

end
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.SumLaw.lean ====
/-
  The order of the loss's sum. The kernel walks the 32 images and, inside each, the 4 tiles of 512 predictions, adding one
  tile's sum at each of its 128 grid points (point t is image t / 4, tile t % 4); the reference sums over the 32 images and
  the 2048 predictions of each. Both are the same sum in any commutative monoid: a sum over 128 = 32 · 4 points is the sum
  over images of the sums over tiles, and a sum over 2048 = 4 · 512 predictions is the sum over tiles of the sums inside a
  tile. At the extended reals no finiteness is needed: only the grouping of the additions changes.
-/
import proofs.«172194_j16071767622181_2_alg».proof.Proof.LibTileSum

namespace Cert.Giou

open Finset Cert.LibTileSum

/-- Image b, tile q: grid point 4 b + q. -/
def pointOf (b : Fin 32) (q : Fin 4) : Fin 128 := ⟨b.val * 4 + q.val, by have := b.isLt; have := q.isLt; omega⟩

/-- Tile q, row r: prediction 512 q + r. -/
def predOf (q : Fin 4) (r : Fin 512) : Fin 2048 := ⟨q.val * 512 + r.val, by have := q.isLt; have := r.isLt; omega⟩

/-- The sum over the 128 grid points of the tiles' sums is the sum over images and predictions. -/
theorem sum_points_eq {M : Type*} [AddCommMonoid M] (f : Fin 32 → Fin 2048 → M) :
    ∑ b : Fin 32, ∑ q : Fin 4, ∑ r : Fin 512, f b (predOf q r) = ∑ b : Fin 32, ∑ p : Fin 2048, f b p := by
  refine Finset.sum_congr rfl fun b _ => ?_
  exact (sum_tiles (T := 4) (B := 512) (fun p => f b p)).symm

/-- A sum over the 128 grid points, image by image and tile by tile. -/
theorem sum_grid_eq {M : Type*} [AddCommMonoid M] (g : Fin 128 → M) :
    ∑ t : Fin 128, g t = ∑ b : Fin 32, ∑ q : Fin 4, g (pointOf b q) :=
  sum_tiles (T := 32) (B := 4) g

end Cert.Giou
-- ==== Proof.KernelBlocks.lean ====
/-
  Which boxes a grid point sees.

  The grid has 128 points; point t = 4 b + q works on image b and on tile q of that image's predictions. Its block of
  predictions is rows 512 q … 512 q + 511 of image b of the prediction array, and its block of targets is all 512 rows of
  image b of the target array. So the tile's summed loss is the sum, over the 512 predictions 512 q + r of image b, of each
  one's loss against the targets of image b.
-/
import proofs.«172194_j16071767622181_2_alg».proof.Proof.Gen.KernelIdeal.Frame
import proofs.«172194_j16071767622181_2_alg».proof.Proof.GiouSpec
import proofs.«172194_j16071767622181_2_alg».proof.Proof.SumLaw
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Loss

open Cert.KernelIdeal Cert.KernelIdeal.Gen Cert.Giou

variable (m : (ℓ : Loc nD τ sig) → Buf (Elt Ideal) ℓ)

/-- The prediction window's block index at point t: image t / 4, tile t % 4, all four coordinates. -/
theorem predIndex : ∀ t : Fin cfg0.N,
    win0_0.index t (0 : Fin 3) = t.val / 4 ∧ win0_0.index t (1 : Fin 3) = t.val % 4 ∧ win0_0.index t (2 : Fin 3) = 0 :=
  (by decide +kernel : ∀ t : Fin grid0.N,
    win0_0.index t (0 : Fin 3) = t.val / 4 ∧ win0_0.index t (1 : Fin 3) = t.val % 4 ∧ win0_0.index t (2 : Fin 3) = 0)

/-- The target window's block index at point t: image t / 4, all rows, all four coordinates. -/
theorem targIndex : ∀ t : Fin cfg0.N,
    win0_1.index t (0 : Fin 3) = t.val / 4 ∧ win0_1.index t (1 : Fin 3) = 0 ∧ win0_1.index t (2 : Fin 3) = 0 :=
  (by decide +kernel : ∀ t : Fin grid0.N,
    win0_1.index t (0 : Fin 3) = t.val / 4 ∧ win0_1.index t (1 : Fin 3) = 0 ∧ win0_1.index t (2 : Fin 3) = 0)

/-- The predictions, as the region finds them: the launch contents of the second argument. -/
abbrev preds (c : Dev nD) : S32x2048x4.Idx → EReal := m ((c : Thread nD τ).loc main_arg1)
/-- The targets: the launch contents of the first argument. -/
abbrev targs (c : Dev nD) : S32x512x4.Idx → EReal := m ((c : Thread nD τ).loc main_arg0)

/-- Row r of the prediction block at point 4 b + q is prediction 512 q + r of image b. -/
theorem pred_block (c : Dev nD) (t : Fin cfg0.N) (b : Fin 32) (q : Fin 4) (ht : t.val = b.val * 4 + q.val)
    (r : Fin 512) (k : Fin 4) :
    (iblk m c 0 t : Vec Ideal S1x512x4 .f32) (ix3 0 r k) = preds m c (ix3 b (predOf q r) k) := by
  obtain ⟨h0, h1, h2⟩ := predIndex t
  unfold iblk
  rw [View.read_apply]
  show V m c main_arg1 _ = V m c main_arg1 _
  refine congrArg (V m c main_arg1) ?_
  funext a
  apply Fin.ext
  have hb := b.isLt
  have hq := q.isLt
  match a with
  | ⟨0, _⟩ =>
    show win0_0.index t 0 * 1 + 1 * (0 : Nat) = b.val
    rw [h0]; omega
  | ⟨1, _⟩ =>
    show win0_0.index t 1 * 512 + 1 * r.val = q.val * 512 + r.val
    rw [h1]; omega
  | ⟨2, _⟩ =>
    show win0_0.index t 2 * 4 + 1 * k.val = k.val
    rw [h2]; omega

/-- Row g of the target block at point 4 b + q is target g of image b. -/
theorem targ_block (c : Dev nD) (t : Fin cfg0.N) (b : Fin 32) (q : Fin 4) (ht : t.val = b.val * 4 + q.val)
    (g : Fin 512) (k : Fin 4) :
    (iblk m c 1 t : Vec Ideal S1x512x4 .f32) (ix3 0 g k) = targs m c (ix3 b g k) := by
  obtain ⟨h0, h1, h2⟩ := targIndex t
  unfold iblk
  rw [View.read_apply]
  show V m c main_arg0 _ = V m c main_arg0 _
  refine congrArg (V m c main_arg0) ?_
  funext a
  apply Fin.ext
  have hb := b.isLt
  have hq := q.isLt
  match a with
  | ⟨0, _⟩ =>
    show win0_1.index t 0 * 1 + 1 * (0 : Nat) = b.val
    rw [h0]; omega
  | ⟨1, _⟩ =>
    show win0_1.index t 1 * 512 + 1 * g.val = g.val
    rw [h1]; omega
  | ⟨2, _⟩ =>
    show win0_1.index t 2 * 4 + 1 * k.val = k.val
    rw [h2]; omega

/-- The summed loss of the tile a grid point works on. -/
def tileAt (c : Dev nD) (t : Fin cfg0.N) : EReal :=
  tileLoss (iblk m c 0 t : Vec Ideal S1x512x4 .f32) (iblk m c 1 t : Vec Ideal S1x512x4 .f32)

/-- At point 4 b + q it is the sum over the tile's rows r of the loss of prediction 512 q + r of image b against the
    targets of image b. -/
theorem tileAt_point (c : Dev nD) (t : Fin cfg0.N) (b : Fin 32) (q : Fin 4) (ht : t.val = b.val * 4 + q.val) :
    tileAt m c t = ∑ r : Fin 512, rowLoss (predRow (preds m c) b (predOf q r)) (targRows (targs m c) b) := by
  unfold tileAt tileLoss
  refine Finset.sum_congr rfl fun r _ => ?_
  have e1 : predRow (iblk m c 0 t : Vec Ideal S1x512x4 .f32) 0 r = predRow (preds m c) b (predOf q r) :=
    funext fun k => pred_block m c t b q ht r k
  have e2 : targRows (iblk m c 1 t : Vec Ideal S1x512x4 .f32) 0 = targRows (targs m c) b :=
    funext fun g => funext fun k => targ_block m c t b q ht g k
  rw [e1, e2]

end Cert.KernelIdeal.Loss

end
-- ==== Proof.KernelLoss.lean ====
/-
  The kernel's result: the whole loss.

  The accumulator is one [1, 1] block that every grid point revisits: the first point leaves zero plus its tile's summed
  loss there, every later point adds its own tile's. By induction over the points, after point n it holds zero plus the
  summed losses of tiles 0 … n; after the last point, of all 128 tiles, which, image by image and tile by tile, is the
  sum over all images and all predictions (the order of a sum over the extended reals does not matter). The block is
  written back once, after the last point, and it is the whole result array. The host then reads that one entry as a
  scalar and divides it by the batch size.
-/
import proofs.«172194_j16071767622181_2_alg».proof.Proof.Gen.KernelIdeal.Frame
import proofs.«172194_j16071767622181_2_alg».proof.Proof.TileCases
import proofs.«172194_j16071767622181_2_alg».proof.Proof.TilePayload
import proofs.«172194_j16071767622181_2_alg».proof.Proof.KernelBlocks
import proofs.«172194_j16071767622181_2_alg».proof.Proof.GiouSpec
import proofs.«172194_j16071767622181_2_alg».proof.Proof.SumLaw
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Loss

open Cert.KernelIdeal Cert.KernelIdeal.Gen Cert.KernelIdeal.Tile Cert.Giou

variable (m : (ℓ : Loc nD τ sig) → Buf (Elt Ideal) ℓ) (ρ : Dev nD → PrngReg)

/-! ## The accumulator, point by point -/

/-- After point n the accumulator's entry is zero plus the summed losses of the tiles of points 0 … n. -/
theorem acc_eq (c : Dev nD) : ∀ (n : ℕ) (h : n < cfg0.N),
    outsAt0 m c n h (ix2 0 0) = zero + ∑ t : Fin (n + 1), tileAt m c ⟨t.val, Nat.lt_of_lt_of_le t.isLt h⟩
  | 0, h => by
    refine (congrFun ((outsAt0_A m c ⟨0, h⟩ rfl).trans (out_A ..)) (ix2 0 0)).trans ?_
    refine (step_apply _ _ _).trans ?_
    rw [Fin.sum_univ_castSucc, Fin.sum_univ_zero, zero_add]
    rfl
  | n + 1, h => by
    have hN : cfg0.N = 128 := N_0
    have hB : ¬(⟨n + 1, h⟩ : Fin cfg0.N).val % 128 = 0 := by dsimp only; omega
    refine (congrFun ((outsAt0_B m c ⟨n + 1, h⟩ hB).trans (out_B ..)) (ix2 0 0)).trans ?_
    refine (step_apply _ _ _).trans ?_
    show outsAt0 m c n _ (ix2 0 0) + tileAt m c ⟨n + 1, h⟩ = _
    rw [acc_eq c n, Fin.sum_univ_castSucc (n := n + 1), add_assoc]
    rfl

/-- The last point is point 127. -/
theorem lastLt : 127 < cfg0.N := by rw [show cfg0.N = 128 from N_0]; decide

/-- After the last point: zero plus the losses of all predictions of all images. -/
theorem acc_last (c : Dev nD) :
    outsAt0 m c 127 lastLt (ix2 0 0)
      = zero + ∑ b : Fin 32, ∑ p : Fin 2048, rowLoss (predRow (preds m c) b p) (targRows (targs m c) b) := by
  rw [acc_eq m c 127 lastLt]
  refine congrArg (fun z => zero + z) ?_
  refine (sum_grid_eq (fun t : Fin 128 => tileAt m c ⟨t.val, Nat.lt_of_lt_of_le t.isLt lastLt⟩)).trans ?_
  rw [← sum_points_eq]
  refine Finset.sum_congr rfl fun b _ => Finset.sum_congr rfl fun q _ => ?_
  exact tileAt_point m c _ b q rfl

/-! ## The result array -/

/-- The accumulator window's block index is (0, 0) at every point: its one block is the whole [1, 1] array. -/
theorem outIndex : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- What the accumulator holds after the last point, as contents of the result array. -/
def lastAcc (c : Dev nD) : Buf (Elt Ideal) ((c : Thread nD τ).loc main_v0) := outsAt0 m c 127 lastLt

/-- The one write-back, after the last point, writes the accumulator: its block at zero offsets is the whole array. (The
    accumulator's contents play no part in this: they are carried as an opaque value.) -/
theorem flushed_eq (c : Dev nD) (t : Fin cfg0.N) (hf : (cfg0.win 2).flush t = true) :
    (dats m 0 c).flushed 2 t = ((cfg0.win 2).blk t).view.read (Elt Ideal) (lastAcc m c) := by
  have hN : cfg0.N = 128 := N_0
  have ht : t.val = 127 := by have := (flush0_2 t).mp hf; have := t.isLt; omega
  obtain rfl : t = ⟨127, lastLt⟩ := Fin.ext ht
  unfold lastAcc
  show (cfg0.win 2).cut (grid0.coords ⟨127, lastLt⟩) (outsAt0 m c 127 lastLt)
    = ((cfg0.win 2).blk ⟨127, lastLt⟩).view.read (Elt Ideal) (outsAt0 m c 127 lastLt)
  generalize outsAt0 m c 127 lastLt = g
  obtain ⟨h0, h1⟩ := outIndex ⟨127, lastLt⟩
  have hz' : (fun a => win0_2.index ⟨127, lastLt⟩ a * main_v0.ty.shape.size a) = fun _ => 0 := funext fun a => by
    match a with
    | ⟨0, _⟩ => show win0_2.index ⟨127, lastLt⟩ 0 * 1 = 0; rw [h0]
    | ⟨1, _⟩ => show win0_2.index ⟨127, lastLt⟩ 1 * 1 = 0; rw [h1]
  exact (Memref.read_access_unit_zero (Elt Ideal) main_v0 hz' (fun a => by rw [congrFun hz' a]; simp) g).symm

/-- So the result array ends holding the accumulator after the last point. -/
theorem final_acc (c : Dev nD) : (dats m 0 c).arrAt 2 cfg0.N = lastAcc m c :=
  (dats m 0 c).arrAt_eq_of_cover 2 (lastAcc m c) (flushed_eq m c) fun i =>
    ⟨⟨127, lastLt⟩, (flush0_2 ⟨127, lastLt⟩).mpr rfl, by
      obtain ⟨h0, h1⟩ := outIndex ⟨127, lastLt⟩
      show i ∈ ((View.whole main_v0).slice (win0_2.rect ⟨127, lastLt⟩)).set
      rw [View.set_slice_whole, Rect.mem_set_unit]
      intro a
      have hi0 : (i 0 : Nat) < 1 := (i 0).isLt
      have hi1 : (i 1 : Nat) < 1 := (i 1).isLt
      match a with
      | ⟨0, _⟩ =>
        show win0_2.index ⟨127, lastLt⟩ 0 * 1 ≤ (i 0 : Nat) ∧ (i 0 : Nat) < win0_2.index ⟨127, lastLt⟩ 0 * 1 + 1
        rw [h0]; omega
      | ⟨1, _⟩ =>
        show win0_2.index ⟨127, lastLt⟩ 1 * 1 ≤ (i 1 : Nat) ∧ (i 1 : Nat) < win0_2.index ⟨127, lastLt⟩ 1 * 1 + 1
        rw [h1]; omega⟩

/-! ## The host's last lines -/

/-- The scalar the program returns: the result array's one entry, read as a rank-0 array, over the batch size. -/
theorem tail_eq (c : Dev nD) :
    Pipeline.afterTail₀ cfgs (dats m) 0 (V0 m) [hostOps1] c main_v2 = fun _ => total (preds m c) (targs m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0)
      = lastAcc m c :=
    (Pipeline.withArrays_arr spec0 launch0.win.arr_inj c _ _ 2).trans (final_acc m c)
  rw [e]
  have hv : lastAcc m c (ix2 0 0)
      = zero + ∑ b : Fin 32, ∑ p : Fin 2048, rowLoss (predRow (preds m c) b p) (targRows (targs m c) b) := by
    unfold lastAcc; exact acc_last m c
  generalize lastAcc m c = g at hv ⊢
  funext i
  show Ideal.div (shapeCast S_ g shapeCasts_S1x1_S_ i) batch = _
  have hk : (S1x1.rowMajor (ix2 0 0)).val = (S_.rowMajor i).val := by
    have h1 : (S_.rowMajor i).val < 1 := (S_.rowMajor i).isLt
    rw [Shape.rowMajor_val_two]
    show (0 : Nat) * 1 + 0 = _
    omega
  rw [shapeCast_apply g shapeCasts_S1x1_S_ i (ix2 0 0) hk, hv]
  rfl

/-! ## The run -/

/-- Every weakly fair execution of the idealized kernel's program terminates with its result at the whole loss of the
    predictions (its second argument) against the targets (its first), and its arguments unchanged. -/
theorem run : θ_run defs (onTc (τ := τ) (main (F := Ideal))) ⟨m, fun _ => 0, ρ⟩ fun r => ∀ c : Dev nD,
      r.2.mem ((c.tc : Thread nD τ).loc main_v2) = (fun _ => total (preds m c) (targs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Loss

end
-- ==== Proof.lean ====
/-
  A pairwise generalized-intersection-over-union loss, tiled, against its whole-array definition.

  Inputs: 32 images, each with 512 target boxes (the first argument, [32, 512, 4]) and 2048 predicted boxes (the second,
  [32, 2048, 4]); a box is (x1, y1, x2, y2). For a prediction p and a target t of one image, giou(p, t) is the intersection
  over the union, kept above a small constant, less the share of the smallest enclosing box that the union leaves empty,
  clipped to [-1, 1] (the module GiouSpec states it over the extended reals). A prediction's loss is one minus its greatest
  giou over its image's targets; the result is the sum of all 32 · 2048 losses divided by 32.

  The reference computes exactly that over the pairwise table [32, 2048, 512]. The kernel walks a 32 × 4 grid, one image and
  one tile of 512 predictions per point; at each point it builds the [512, 512] table of the tile against the image's
  targets, reduces it to the tile's summed loss and adds that into a single [1, 1] accumulator, reset at the first point and
  written back once after the last; the host divides by 32. Entry by entry the two pairwise tables are the same function of
  the same boxes (the two programs write their clips with the operands in different orders; max and min do not care),
  and the two sums differ only in how their 65536 terms are grouped, which is immaterial for a sum over the extended
  reals. So the two results agree for all inputs, finite or not.

  The three frame claims: the kernel's two programs are framed by their generated frame proofs; the reference's frame is
  its run with the result forgotten. The idealization rewrote nothing, so there is nothing to preserve.
-/
import proofs.«172194_j16071767622181_2_alg».proof.Defs
import proofs.«172194_j16071767622181_2_alg».proof.Proof.Gen.Kernel
import proofs.«172194_j16071767622181_2_alg».proof.Proof.Gen.Kernel.Frame
import proofs.«172194_j16071767622181_2_alg».proof.Proof.Gen.KernelIdeal
import proofs.«172194_j16071767622181_2_alg».proof.Proof.Gen.KernelIdeal.Frame
import proofs.«172194_j16071767622181_2_alg».proof.Proof.Gen.ReferenceIdeal
import proofs.«172194_j16071767622181_2_alg».proof.Proof.Gen.Pre_finite_inputs
import proofs.«172194_j16071767622181_2_alg».proof.Proof.RefRun
import proofs.«172194_j16071767622181_2_alg».proof.Proof.RefRead
import proofs.«172194_j16071767622181_2_alg».proof.Proof.RefValue
import proofs.«172194_j16071767622181_2_alg».proof.Proof.KernelLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the whole loss of the same predictions against the same targets. -/
theorem algebraic : Cert.algebraic_KernelIdeal_ReferenceIdeal := by
  intro m ρ m' ρ' _ hagree
  refine ⟨fun c _ => Cert.Giou.total (Cert.KernelIdeal.Loss.preds m c) (Cert.KernelIdeal.Loss.targs m c),
    Cert.KernelIdeal.Loss.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v125_eq, Cert.ReferenceIdeal.Loss.result_eq, (hagree c).1, (hagree c).2.1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
